-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16x512x128 : Shape := ⟨3, ![16, 512, 128]⟩
abbrev S16x4096 : Shape := ⟨2, ![16, 4096]⟩
abbrev S16x512 : Shape := ⟨2, ![16, 512]⟩
abbrev S128x128 : Shape := ⟨2, ![128, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S16x512x128 : S_.BroadcastsInDim S16x512x128 (![] : Fin 0 → Fin S16x512x128.rank)
  reducesTo_S16x512x128_S_d0_1_2 : S16x512x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16x4096x128 .f32) (main_arg1 : FVec F S16x512x128 .f32) (main_arg2 : IVec S16x4096 32) (main_arg3 : IVec S16x512 32) (main_arg4 : FVec F S128x128 .f32) (main_arg5 : FVec F S128x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S16x512x128 .f32 := Host.absf main_arg1
  let main_cst_0 : FVec F S_ .f32 := constant S_ .f32 0x7F800000#32
  let main_v5 : FVec F S16x512x128 .f32 := broadcastInDim S16x512x128 ![] bcast_S_S16x512x128 main_cst_0
  let main_v6 : IVec S16x512x128 1 := cmpf .olt main_v4 main_v5
  let main_c_1 : IVec S_ 1 := constantI S_ 1 1#1
  let main_v7 : IVec S_ 1 := (fun x v => Host.reduce IntOp.andi x v reducesTo_S16x512x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16x4096x128 : Shape := ⟨3, ![16, 4096, 128]⟩
abbrev S16x512x128 : Shape := ⟨3, ![16, 512, 128]⟩
abbrev S16x4096 : Shape := ⟨2, ![16, 4096]⟩
abbrev S16x512 : Shape := ⟨2, ![16, 512]⟩
abbrev S128x128 : Shape := ⟨2, ![128, 128]⟩
abbrev S1x1024x128 : Shape := ⟨3, ![1, 1024, 128]⟩
abbrev S1x512x128 : Shape := ⟨3, ![1, 512, 128]⟩
abbrev S1024x128 : Shape := ⟨2, ![1024, 128]⟩
abbrev S512x128 : Shape := ⟨2, ![512, 128]⟩
abbrev S128x512 : Shape := ⟨2, ![128, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x4096x128, .f32⟩
  | .hbm, ⟨1, _⟩ => ⟨S16x512x128, .f32⟩
  | .hbm, ⟨2, _⟩ => ⟨S16x4096, .i32⟩
  | .hbm, ⟨3, _⟩ => ⟨S16x512, .i32⟩
  | .hbm, ⟨4, _⟩ => ⟨S128x128, .f32⟩
  | .hbm, ⟨5, _⟩ => ⟨S128x128, .f32⟩
  | .hbm, ⟨6, _⟩ => ⟨S16x4096x128, .f32⟩
  | .local _ .vmem, ⟨0, _⟩ => ⟨S1x1024x128, .f32⟩
  | .local _ .vmem, ⟨1, _⟩ => ⟨S1x1024x128, .f32⟩
  | .local _ .vmem, ⟨2, _⟩ => ⟨S1x512x128, .f32⟩
  | .local _ .vmem, ⟨3, _⟩ => ⟨S1x512x128, .f32⟩
  | .local _ .vmem, ⟨4, _⟩ => ⟨S128x128, .f32⟩
  | .local _ .vmem, ⟨5, _⟩ => ⟨S128x128, .f32⟩
  | .local _ .vmem, ⟨6, _⟩ => ⟨S1x1024x128, .f32⟩
  | .local _ .vmem, ⟨7, _⟩ => ⟨S1x1024x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  transposes_S512x128_p1_0_S128x512 : S512x128.Transposes [1, 0] S128x512
  reduces_S1024x512_S1024 : S1024x512.Reduces [1] S1024
  shapeCasts_S1024_S1024x1 : S1024.ShapeCasts S1024x1
  broadcasts_S1024x1_S1024x512 : S1024x1.Broadcasts S1024x512
  inb_S128x128_S128x128_0_0 : ∀ a, (![0, 0] : Fin 2 → Nat) a + S128x128.size a ≤ S128x128.size a
  h_S128x128 : 0 < S128x128.numel
  shapeCasts_S1024x128_S1x1024x128 : S1024x128.ShapeCasts S1x1024x128
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x4096x128.size a
  hwx0_0 : ∀ i : grid0.Coords, EltTy.bits .f32 = 32 ∨ (Rect.block (s := S16x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x512x128.size a
  hwx0_1 : ∀ i : grid0.Coords, EltTy.bits .f32 = 32 ∨ (Rect.block (s := S16x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S16x4096x128.size a
  hwx0_4 : ∀ i : grid0.Coords, EltTy.bits .f32 = 32 ∨ (Rect.block (s := S16x4096x128) S1x1024x128.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16x512x128 : Shape := ⟨3, ![16, 512, 128]⟩
abbrev S16x4096 : Shape := ⟨2, ![16, 4096]⟩
abbrev S16x512 : Shape := ⟨2, ![16, 512]⟩
abbrev S128x128 : Shape := ⟨2, ![128, 128]⟩
abbrev S16x4096x512 : Shape := ⟨3, ![16, 4096, 512]⟩
abbrev S_ : Shape := ⟨0, ![]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x512x128, .f32⟩
  | .hbm, ⟨2, _⟩ => ⟨S16x4096, .i32⟩
  | .hbm, ⟨3, _⟩ => ⟨S16x512, .i32⟩
  | .hbm, ⟨4, _⟩ => ⟨S128x128, .f32⟩
  | .hbm, ⟨5, _⟩ => ⟨S128x128, .f32⟩
  | .hbm, ⟨6, _⟩ => ⟨S16x4096x512, .f32⟩
  | .hbm, ⟨7, _⟩ => ⟨S_, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096x1, .f32⟩
  | .hbm, ⟨13, _⟩ => ⟨S16x4096x512, .f32⟩
  | .hbm, ⟨14, _⟩ => ⟨S16x4096x512, .f32⟩
  | .hbm, ⟨15, _⟩ => ⟨S16x4096x512, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x512, .f32⟩
  | .hbm, ⟨20, _⟩ => ⟨S16x4096x512, .f32⟩
  | .hbm, ⟨21, _⟩ => ⟨S16x4096x128, .f32⟩
  | .hbm, ⟨22, _⟩ => ⟨S16x4096x128, .f32⟩
  | .hbm, ⟨23, _⟩ => ⟨S16x4096x128, .f32⟩
  | .hbm, ⟨24, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  reducesTo_S16x4096x512_S16x4096_d2 : S16x4096x512.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x512_0_1_2 : S16x4096x1.BroadcastsInDim S16x4096x512 (![0, 1, 2] : Fin 3 → Fin S16x4096x512.rank)
  dot_S16x4096x128_S16x512x128_S16x4096x512_2_2_1_1_0_0_wf : DotDims.WF S16x4096x128 S16x512x128 S16x4096x512 [2] [2] [1] [1] [0] [0]
  dot_S16x4096x512_S16x512x128_S16x4096x128_2_1_1_2_0_0_wf : DotDims.WF S16x4096x512 S16x512x128 S16x4096x128 [2] [1] [1] [2] [0] [0]
  dot_S16x4096x128_S128x128_S16x4096x128_2_0_01_1_n_n_wf : DotDims.WF S16x4096x128 S128x128 S16x4096x128 [2] [0] [0, 1] [1] [] []

variable [Facts₀]

def dot_S16x4096x128_S16x512x128_S16x4096x512_2_2_1_1_0_0 : DotDims S16x4096x128 S16x512x128 S16x4096x512 where
  lhsContracting := [2]
  rhsContracting := [2]
  lhsNonContracting := [1]
  rhsNonContracting := [1]
  lhsBatch := [0]
  rhsBatch := [0]
  wf := dot_S16x4096x128_S16x512x128_S16x4096x512_2_2_1_1_0_0_wf
def dot_S16x4096x512_S16x512x128_S16x4096x128_2_1_1_2_0_0 : DotDims S16x4096x512 S16x512x128 S16x4096x128 where
  lhsContracting := [2]
  rhsContracting := [1]
  lhsNonContracting := [1]
  rhsNonContracting := [2]
  lhsBatch := [0]
  rhsBatch := [0]
  wf := dot_S16x4096x512_S16x512x128_S16x4096x128_2_1_1_2_0_0_wf
def dot_S16x4096x128_S128x128_S16x4096x128_2_0_01_1_n_n : DotDims S16x4096x128 S128x128 S16x4096x128 where
  lhsContracting := [2]
  rhsContracting := [0]
  lhsNonContracting := [0, 1]
  rhsNonContracting := [1]
  lhsBatch := []
  rhsBatch := []
  wf := dot_S16x4096x128_S128x128_S16x4096x128_2_0_01_1_n_n_wf

class Facts : Prop extends Facts₀ where

variable [Facts]
-- ==== Proof.Attend.lean ====
/-
  Attention of a context row over a block of question rows, then two projections — the function both programs compute,
  written once over the extended reals, entry by entry.
  For a context row `a` (128 numbers), the question rows `Q` (512 rows of 128) and two 128×128 matrices `W0`, `W1`:
  the scores are the inner products of `a` with the rows of `Q`; their maximum (never below -∞, the value both programs
  start the maximum from and join it with once more) is subtracted before the exponential; the weights are the exponentials
  divided by their sum over the 512 question rows; the blend is the weighted sum of the question rows; and the result row is
  `blend · W1 + a · W0`. The result array has, at (b, c, ·), that row for context row c of batch b against batch b's
  question rows.
-/
import Idealize.ShloMosaic.PureOps.Ideal
import Idealize.ShloMosaic.Lib.ValueIdx

noncomputable section

namespace Cert.Attend

open Idealize.ShloMosaic Idealize.ShloMosaic.ValueIdx

/-- The value the maximum starts from: the pattern of -∞. -/
abbrev floor : EReal := Ideal.ofBits .f32 0xFF800000#32

variable (a : Fin 128 → EReal) (Q : Fin 512 → Fin 128 → EReal) (W0 W1 : Fin 128 → Fin 128 → EReal)

/-- Score of question row q: the inner product with the context row. -/
def score (q : Fin 512) : EReal := ∑ k : Fin 128, a k * Q q k

/-- The largest score, joined with the floor. -/
def peak : EReal := max floor ((Finset.univ : Finset (Fin 512)).fold max floor fun q => score a Q q)

/-- The exponential of a score less the peak. -/
def expo (q : Fin 512) : EReal := Ideal.exp (score a Q q - peak a Q)

/-- The sum of the exponentials over the question rows. -/
def mass : EReal := ∑ q : Fin 512, expo a Q q

/-- The weight of question row q. -/
def weight (q : Fin 512) : EReal := Ideal.div (expo a Q q) (mass a Q)

/-- The weighted sum of the question rows, at column d. -/
def blend (d : Fin 128) : EReal := ∑ q : Fin 512, weight a Q q * Q q d

/-- The result row at column e: the blend through `W1` plus the context row through `W0`. -/
def outRow (e : Fin 128) : EReal := (∑ d : Fin 128, blend a Q d * W1 d e) + ∑ d : Fin 128, a d * W0 d e

/-- The whole result array, as a function of the four argument arrays. -/
def result (xc : (⟨3, ![16, 4096, 128]⟩ : Shape).Idx → EReal) (xq : (⟨3, ![16, 512, 128]⟩ : Shape).Idx → EReal)
    (w0 w1 : (⟨2, ![128, 128]⟩ : Shape).Idx → EReal) : (⟨3, ![16, 4096, 128]⟩ : Shape).Idx → EReal := fun i =>
  outRow (fun k => xc (ix3 (i 0) (i 1) k)) (fun q k => xq (ix3 (i 0) q k)) (fun d e => w0 (ix2 d e)) (fun d e => w1 (ix2 d e)) (i 2)

end Cert.Attend

end
-- ==== Proof.LibRowOps.lean ====
/-
  Rows of a matrix at the ideal values: a matrix product into a zero accumulator read at an entry as the sum over the
  contracted axis (also against a transposed right factor), a row's maximum and a row's sum spread back over the row's
  columns (the keepdims column [m] → [m,1] → [m,n]), each read at an entry (r, c) with the coordinates written out.
  Nothing here mentions a program: the shapes are literal ranks with symbolic extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

/-- In a plain M×K by K×N product the left operand's row coordinate is the output's row. -/
theorem plain_lhs_row {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- … and the right operand's column coordinate is the output's column. -/
theorem plain_rhs_col {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The product of an M×K and a K×N matrix into the zero matrix, at entry (r, c): the sum over k of (r, k) times (k, c). -/
theorem plain_matmul_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact plain_rhs_col _ _)
  rw [el, er]

/-- The same against a right factor given as an N×K matrix transposed: the sum over k of (r, k) times (c, k). -/
theorem plain_matmul_transposed_apply {M K N : Nat} {φ₁ φ₂ : FTy} (prec : Option ContractPrecision)
    (lhs : FVec Ideal ⟨2, ![M, K]⟩ φ₁) (b : FVec Ideal ⟨2, ![N, K]⟩ φ₂)
    (h : (⟨2, ![N, K]⟩ : Shape).Transposes [1, 0] ⟨2, ![K, N]⟩) (r : Fin M) (c : Fin N) :
    matmul (DotDims.plain M K N) prec lhs (transpose ⟨2, ![K, N]⟩ [1, 0] b h) (constant (F := Ideal) ⟨2, ![M, N]⟩ .f32 0x00000000#32) (ix2 r c)
      = ∑ k : Fin K, lhs (ix2 r k) * b (ix2 c k) := by
  refine (plain_matmul_apply prec lhs _ r c).trans (Finset.sum_congr rfl fun k _ => ?_)
  exact congrArg (lhs (ix2 r k) * ·) (transpose_ix2_apply b h k c)

/-- A column of row values [m] viewed [m,1] and spread over n columns reads, at (r, c), the row's value. -/
theorem column_spread_apply {α : Type} {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ v h1) h2 (ix2 r c) = v (ix1 r) := by
  refine (broadcastTo_apply _ h2 (ix2 r c) (ix2 r (0 : Fin 1)) fun a => ?_).trans ?_
  · match a with
    | ⟨0, _⟩ =>
      show r.val = if M = 1 then 0 else r.val
      split
      · have := r.isLt; omega
      · rfl
    | ⟨1, _⟩ => show 0 = if (1 : Nat) = 1 then 0 else c.val; rw [if_pos rfl]
  · refine shapeCast_apply v h1 _ _ ?_
    rw [Shape.rowMajor_val_one, Shape.rowMajor_val_two]
    show r.val = r.val * 1 + 0
    omega

/-- A row's maximum from the accumulator's value, joined once more with a second bound `lo`, spread back over the row. -/
theorem row_max_spread_apply {M N : Nat} (src : FVec Ideal ⟨2, ![M, N]⟩ .f32) (lo acc : BitVec (FTy.bits .f32))
    (h : (⟨2, ![M, N]⟩ : Shape).Reduces [1] ⟨1, ![M]⟩) (hφ : FKind.Formats .f32) (hacc : acc = FKind.maximumf.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩
        (maximumf (broadcast ⟨1, ![M]⟩ (Scalar.ofBits (F := Ideal) .f32 lo)) (multiReduction .maximumf [1] ⟨1, ![M]⟩ src acc h hφ hacc)) h1) h2 (ix2 r c)
      = max (Ideal.ofBits .f32 lo) ((Finset.univ : Finset (Fin N)).fold max (Ideal.ofBits .f32 acc) fun q => src (ix2 r q)) := by
  refine (column_spread_apply _ h1 h2 r c).trans ?_
  show max (Ideal.ofBits .f32 lo) (multiReduction .maximumf [1] ⟨1, ![M]⟩ src acc h hφ hacc (ix1 r)) = _
  refine congrArg (max (Ideal.ofBits .f32 lo)) ?_
  refine (Ideal.multiReduction_maximumf_single src acc h hφ hacc (ix1 r)).trans ?_
  refine congrArg (Finset.fold max _ · _) (funext fun q => congrArg src (funext fun a => Fin.ext ?_))
  match a with
  | ⟨0, _⟩ => rfl
  | ⟨1, _⟩ => rfl

/-- A row's sum spread back over the row. -/
theorem row_sum_spread_apply {M N : Nat} (src : FVec Ideal ⟨2, ![M, N]⟩ .f32) (acc : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ (multiReduction .add [1] ⟨1, ![M]⟩ src acc h hφ hacc) h1) h2 (ix2 r c)
      = ∑ q : Fin N, src (ix2 r q) := by
  refine (column_spread_apply _ h1 h2 r c).trans ?_
  refine (Ideal.multiReduction_add_single src acc h hφ hacc (ix1 r)).trans ?_
  refine Finset.sum_congr rfl fun q _ => congrArg src (funext fun a => Fin.ext ?_)
  match a with
  | ⟨0, _⟩ => rfl
  | ⟨1, _⟩ => rfl

/-- On the host: the maximum over the last axis of a rank-3 array from an initial value, at (b, c), is the fold of `max` from
    that value over the last coordinate. -/
theorem host_row_max_apply {B M N : Nat} (x : (⟨3, ![B, M, N]⟩ : Shape).Idx → EReal) (init : (⟨0, ![]⟩ : Shape).Idx → EReal)
    (h' : (⟨3, ![B, M, N]⟩ : Shape).ReducesTo [2] ⟨2, ![B, M]⟩) (h : (⟨3, ![B, M, N]⟩ : Shape).Reduces [2] ⟨2, ![B, M]⟩)
    (hu : 0 < (⟨0, ![]⟩ : Shape).numel) (b : Fin B) (c : Fin M) :
    Host.reduce (FloatOps.maximumf (F := Ideal) (φ := .f32)) x init h' hu (ix2 b c)
      = (Finset.univ : Finset (Fin N)).fold max (init (Shape.Idx.first hu)) fun q => x (ix3 b c q) := by
  refine (Host.reduce_eq_fold_single (FloatOps.maximumf (F := Ideal) (φ := .f32)) x init h' h hu (ix2 b c)).trans ?_
  refine congrArg (Finset.fold max _ · _) (funext fun q => congrArg x (funext fun a => Fin.ext ?_))
  match a with
  | ⟨0, _⟩ => rfl
  | ⟨1, _⟩ => rfl
  | ⟨2, _⟩ => rfl

end Cert.RowOps

end
-- ==== Proof.KernelAttend.lean ====
/-
  The kernel body's stored value, entry by entry: for the block's context row r and column e it is `Attend.outRow` of that
  row of the loaded context block, the loaded question block's rows, and the two loaded weight matrices. The body's value is
  named stage by stage (scores, exponentials, weights, blend, projections) as the same operations the printed body applies,
  and each stage is read at an entry: a matrix product as a sum over the contracted axis, a row's maximum and a row's sum
  spread back over the row, the roundings to bf16 the identity on the extended reals.
-/
import proofs.«129756_j6047313952905_1_alg».proof.Proof.Gen.KernelIdeal.Skeleton
import proofs.«129756_j6047313952905_1_alg».proof.Proof.Attend
import proofs.«129756_j6047313952905_1_alg».proof.Proof.LibRowOps

noncomputable section

namespace Cert.KernelIdeal.Hand

open Cert.KernelIdeal Cert.KernelIdeal.Gen Idealize.ShloMosaic Idealize.ShloMosaic.ValueIdx
open Cert.Attend

variable (v0 : Vec Ideal S1x1024x128 .f32) (v2 : Vec Ideal S1x512x128 .f32) (v21 v23 : Vec Ideal S128x128 .f32)

/-- The context block as a matrix, rounded for the matrix unit. -/
def ctxM : FVec Ideal S1024x128 .bf16 :=
  truncf .bf16 (shapeCast S1024x128 v0 shapeCasts_S1x1024x128_S1024x128 : FVec Ideal S1024x128 .f32) bitsLt_bf16_f32
/-- The question block as a matrix, rounded for the matrix unit. -/
def qM : FVec Ideal S512x128 .bf16 :=
  truncf .bf16 (shapeCast S512x128 v2 shapeCasts_S1x512x128_S512x128 : FVec Ideal S512x128 .f32) bitsLt_bf16_f32

/-- The scores: context rows against question rows. -/
def scoreM : FVec Ideal S1024x512 .f32 :=
  matmul dot_S1024x128_S128x512_S1024x512_1_0_0_1_n_n none (ctxM v0) (transpose S128x512 [1, 0] (qM v2) transposes_S512x128_p1_0_S128x512)
    (constant S1024x512 .f32 0x00000000#32)

/-- The exponentials of the scores less each row's peak. -/
def expoM : FVec Ideal S1024x512 .f32 :=
  exp (subf (scoreM v0 v2) (broadcastTo S1024x512 (shapeCast S1024x1
    (maximumf (broadcast S1024 (Scalar.ofBits .f32 0xFF800000#32))
      (multiReduction .maximumf [1] S1024 (scoreM v0 v2) 0xFF800000#32 reduces_S1024x512_S1024 (.inl rfl) rfl))
    shapeCasts_S1024_S1024x1) broadcasts_S1024x1_S1024x512))

/-- The weights: each exponential over its row's sum. -/
def weightM : FVec Ideal S1024x512 .f32 :=
  divf (expoM v0 v2) (broadcastTo S1024x512 (shapeCast S1024x1
    (multiReduction .add [1] S1024 (expoM v0 v2) 0x00000000#32 reduces_S1024x512_S1024 (.inl rfl) rfl)
    shapeCasts_S1024_S1024x1) broadcasts_S1024x1_S1024x512)

/-- The blend: weights against question rows. -/
def blendM : FVec Ideal S1024x128 .f32 :=
  matmul dot_S1024x512_S512x128_S1024x128_1_0_0_1_n_n none (truncf .bf16 (weightM v0 v2) bitsLt_bf16_f32) (qM v2)
    (constant S1024x128 .f32 0x00000000#32)

/-- The result block as a matrix: the blend through the second weight matrix plus the context through the first. -/
def outM : FVec Ideal S1024x128 .f32 :=
  addf
    (matmul dot_S1024x128_S128x128_S1024x128_1_0_0_1_n_n none (truncf .bf16 (blendM v0 v2) bitsLt_bf16_f32)
      (truncf .bf16 (v23 : FVec Ideal S128x128 .f32) bitsLt_bf16_f32) (constant S1024x128 .f32 0x00000000#32))
    (matmul dot_S1024x128_S128x128_S1024x128_1_0_0_1_n_n none (ctxM v0)
      (truncf .bf16 (v21 : FVec Ideal S128x128 .f32) bitsLt_bf16_f32) (constant S1024x128 .f32 0x00000000#32))

/-- The printed body's stored value is these stages composed. -/
theorem pay_eq : k0_pay1 (F := Ideal) v0 v2 v21 v23 = shapeCast S1x1024x128 (outM v0 v2 v21 v23) shapeCasts_S1024x128_S1x1024x128 := rfl

/-- Row r of the loaded context block. -/
abbrev ctxRow (r : Fin 1024) : Fin 128 → EReal := fun k => v0 (ix3 (0 : Fin 1) r k)
/-- The rows of the loaded question block. -/
abbrev qRows : Fin 512 → Fin 128 → EReal := fun q k => v2 (ix3 (0 : Fin 1) q k)

theorem ctxM_apply (r : Fin 1024) (k : Fin 128) : ctxM v0 (ix2 r k) = v0 (ix3 (0 : Fin 1) r k) :=
  shapeCast_1ab_ab_apply v0 shapeCasts_S1x1024x128_S1024x128 r k

theorem qM_apply (q : Fin 512) (k : Fin 128) : qM v2 (ix2 q k) = v2 (ix3 (0 : Fin 1) q k) :=
  shapeCast_1ab_ab_apply v2 shapeCasts_S1x512x128_S512x128 q k

theorem scoreM_apply (r : Fin 1024) (q : Fin 512) : scoreM v0 v2 (ix2 r q) = score (ctxRow v0 r) (qRows v2) q := by
  refine (Cert.RowOps.plain_matmul_transposed_apply (M := 1024) (K := 128) (N := 512) none (ctxM v0) (qM v2)
    transposes_S512x128_p1_0_S128x512 r q).trans ?_
  unfold score
  exact Finset.sum_congr rfl fun k _ => by rw [ctxM_apply, qM_apply]

theorem expoM_apply (r : Fin 1024) (q : Fin 512) : expoM v0 v2 (ix2 r q) = expo (ctxRow v0 r) (qRows v2) q := by
  show Ideal.exp (scoreM v0 v2 (ix2 r q) - _) = Ideal.exp (score (ctxRow v0 r) (qRows v2) q - peak (ctxRow v0 r) (qRows v2))
  refine congrArg Ideal.exp (congrArg₂ (· - ·) (scoreM_apply v0 v2 r q) ?_)
  refine (Cert.RowOps.row_max_spread_apply (M := 1024) (N := 512) (scoreM v0 v2) 0xFF800000#32 0xFF800000#32 reduces_S1024x512_S1024
    (.inl rfl) rfl shapeCasts_S1024_S1024x1 broadcasts_S1024x1_S1024x512 r q).trans ?_
  unfold peak
  exact congrArg (max floor) (congrArg (Finset.fold max floor · Finset.univ) (funext fun q' => scoreM_apply v0 v2 r q'))

theorem weightM_apply (r : Fin 1024) (q : Fin 512) : weightM v0 v2 (ix2 r q) = weight (ctxRow v0 r) (qRows v2) q := by
  show Ideal.div (expoM v0 v2 (ix2 r q)) _ = Ideal.div (expo (ctxRow v0 r) (qRows v2) q) (mass (ctxRow v0 r) (qRows v2))
  refine congrArg₂ Ideal.div (expoM_apply v0 v2 r q) ?_
  refine (Cert.RowOps.row_sum_spread_apply (M := 1024) (N := 512) (expoM v0 v2) 0x00000000#32 reduces_S1024x512_S1024
    (.inl rfl) rfl shapeCasts_S1024_S1024x1 broadcasts_S1024x1_S1024x512 r q).trans ?_
  unfold mass
  exact Finset.sum_congr rfl fun q' _ => expoM_apply v0 v2 r q'

theorem blendM_apply (r : Fin 1024) (d : Fin 128) : blendM v0 v2 (ix2 r d) = blend (ctxRow v0 r) (qRows v2) d := by
  refine (Cert.RowOps.plain_matmul_apply (M := 1024) (K := 512) (N := 128) none (truncf .bf16 (weightM v0 v2) bitsLt_bf16_f32) (qM v2) r d).trans ?_
  unfold blend
  refine Finset.sum_congr rfl fun q _ => ?_
  show weightM v0 v2 (ix2 r q) * qM v2 (ix2 q d) = _
  rw [weightM_apply, qM_apply]

theorem outM_apply (r : Fin 1024) (e : Fin 128) :
    outM v0 v2 v21 v23 (ix2 r e) = outRow (ctxRow v0 r) (qRows v2) (fun d e => v21 (ix2 d e)) (fun d e => v23 (ix2 d e)) e := by
  show _ + _ = _
  unfold outRow
  refine congrArg₂ (· + ·) ?_ ?_
  · refine (Cert.RowOps.plain_matmul_apply (M := 1024) (K := 128) (N := 128) none (truncf .bf16 (blendM v0 v2) bitsLt_bf16_f32)
      (truncf .bf16 (v23 : FVec Ideal S128x128 .f32) bitsLt_bf16_f32) r e).trans ?_
    refine Finset.sum_congr rfl fun d _ => ?_
    show blendM v0 v2 (ix2 r d) * v23 (ix2 d e) = _
    rw [blendM_apply]
  · refine (Cert.RowOps.plain_matmul_apply (M := 1024) (K := 128) (N := 128) none (ctxM v0) (truncf .bf16 (v21 : FVec Ideal S128x128 .f32) bitsLt_bf16_f32) r e).trans ?_
    refine Finset.sum_congr rfl fun d _ => ?_
    show ctxM v0 (ix2 r d) * v21 (ix2 d e) = _
    rw [ctxM_apply]

/-- The stored value at (u, r, e) of the block: the result row of context row r, at column e. -/
theorem pay_apply (u : Fin 1) (r : Fin 1024) (e : Fin 128) :
    k0_pay1 (F := Ideal) v0 v2 v21 v23 (ix3 u r e)
      = outRow (ctxRow v0 r) (qRows v2) (fun d e => v21 (ix2 d e)) (fun d e => v23 (ix2 d e)) e := by
  rw [pay_eq]
  exact (shapeCast_ab_1ab_apply (outM v0 v2 v21 v23) shapeCasts_S1024x128_S1x1024x128 u r e).trans (outM_apply v0 v2 v21 v23 r e)

end Cert.KernelIdeal.Hand

end
-- ==== Proof.KernelRun.lean ====
/-
  From blocks to the array. Grid point (b, j) of the 16 × 4 grid stages context rows 1024·j … 1024·j + 1023 of batch b,
  all 512 question rows of batch b and both weight matrices whole, and writes back the same rows of the result; so what it
  writes back is that block of `Attend.result` of the four argument arrays, the 64 blocks cover the result array, and after
  the run the result array is `Attend.result` of the arguments.
-/
import proofs.«129756_j6047313952905_1_alg».proof.Proof.Gen.KernelIdeal.Value
import proofs.«129756_j6047313952905_1_alg».proof.Proof.KernelAttend

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.Attend

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the context window and the result window move together, the question window follows
    the batch coordinate only, the weight windows stay at the origin; the result's block indices stay in their ranges. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 15 ∧ win0_4.index t (1 : Fin 3) ≤ 3 :=
  (by decide +kernel : ∀ t : Fin grid0.N, _)

/-- Every (batch, row block) pair is some grid point's. -/
theorem index_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The context block at a point, read at (0, r, k): the context array at (batch, first row + r, k). -/
theorem ctx_block_apply (c : Dev nD) (t : Fin cfg0.N) (r : Fin 1024) (k : Fin 128) (i : S16x4096x128.Idx)
    (h0 : (i 0).val = win0_4.index t (0 : Fin 3)) (h1 : (i 1).val = win0_4.index t (1 : Fin 3) * 1024 + r.val) (h2 : (i 2).val = k.val) :
    (iblk m c 0 t : Vec Ideal S1x1024x128 .f32) (ix3 (0 : Fin 1) r k) = (m ((c : Thread nD τ).loc main_arg0) : S16x4096x128.Idx → EReal) i := by
  obtain ⟨e0, e1, e2, -⟩ := index_facts t
  unfold iblk
  rw [View.read_apply]
  show V m c main_arg0 _ = m (c.tc.loc main_arg0) _
  refine congrArg (m (c.tc.loc main_arg0)) (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 128 + 1 * k.val = (i 2).val; omega

/-- The question block at a point, read at (0, q, k): the question array at (batch, q, k). -/
theorem q_block_apply (c : Dev nD) (t : Fin cfg0.N) (q : Fin 512) (k : Fin 128) (i : S16x512x128.Idx)
    (h0 : (i 0).val = win0_4.index t (0 : Fin 3)) (h1 : (i 1).val = q.val) (h2 : (i 2).val = k.val) :
    (iblk m c 1 t : Vec Ideal S1x512x128 .f32) (ix3 (0 : Fin 1) q k) = (m ((c : Thread nD τ).loc main_arg1) : S16x512x128.Idx → EReal) i := by
  obtain ⟨-, -, -, -, e0, e1, e2, -⟩ := index_facts t
  unfold iblk
  rw [View.read_apply]
  show V m c main_arg1 _ = m (c.tc.loc main_arg1) _
  refine congrArg (m (c.tc.loc main_arg1)) (funext fun a => Fin.ext ?_)
  match a with
  | ⟨0, _⟩ => show win0_1.index t (0 : Fin 3) * 1 + 1 * 0 = (i 0).val; omega
  | ⟨1, _⟩ => show win0_1.index t (1 : Fin 3) * 512 + 1 * q.val = (i 1).val; omega
  | ⟨2, _⟩ => show win0_1.index t (2 : Fin 3) * 128 + 1 * k.val = (i 2).val; omega

/-- The first weight matrix's block at any point is the whole matrix. -/
theorem w0_block_apply (c : Dev nD) (t : Fin cfg0.N) (d e : Fin 128) :
    (iblk m c 2 t : Vec Ideal S128x128 .f32) (ix2 d e) = (m ((c : Thread nD τ).loc main_arg4) : S128x128.Idx → EReal) (ix2 d e) := by
  obtain ⟨-, -, -, -, -, -, -, e0, e1, -⟩ := index_facts t
  unfold iblk
  rw [View.read_apply]
  show V m c main_arg4 _ = m (c.tc.loc main_arg4) _
  refine congrArg (m (c.tc.loc main_arg4)) (funext fun a => Fin.ext ?_)
  match a with
  | ⟨0, _⟩ => show win0_2.index t (0 : Fin 2) * 128 + 1 * d.val = d.val; omega
  | ⟨1, _⟩ => show win0_2.index t (1 : Fin 2) * 128 + 1 * e.val = e.val; omega

/-- The second weight matrix's block at any point is the whole matrix. -/
theorem w1_block_apply (c : Dev nD) (t : Fin cfg0.N) (d e : Fin 128) :
    (iblk m c 3 t : Vec Ideal S128x128 .f32) (ix2 d e) = (m ((c : Thread nD τ).loc main_arg5) : S128x128.Idx → EReal) (ix2 d e) := by
  obtain ⟨-, -, -, -, -, -, -, -, -, e0, e1, -⟩ := index_facts t
  unfold iblk
  rw [View.read_apply]
  show V m c main_arg5 _ = m (c.tc.loc main_arg5) _
  refine congrArg (m (c.tc.loc main_arg5)) (funext fun a => Fin.ext ?_)
  match a with
  | ⟨0, _⟩ => show win0_3.index t (0 : Fin 2) * 128 + 1 * d.val = d.val; omega
  | ⟨1, _⟩ => show win0_3.index t (1 : Fin 2) * 128 + 1 * e.val = e.val; omega

/-- The result array as the function of the launch memory's four float arguments. -/
abbrev resultOf (c : Dev nD) : Buf (Elt Ideal) ((c : Thread nD τ).loc main_v0) :=
  result (m ((c : Thread nD τ).loc main_arg0)) (m ((c : Thread nD τ).loc main_arg1)) (m ((c : Thread nD τ).loc main_arg4)) (m ((c : Thread nD τ).loc main_arg5))

/-- One entry of what a point stores: the body's value at (u, r, e) is `result` at (batch, first row + r, e). -/
theorem point_entry (c : Dev nD) (t : Fin cfg0.N) (u : Fin 1) (r : Fin 1024) (e : Fin 128) (i : S16x4096x128.Idx)
    (h0 : (i 0).val = win0_4.index t (0 : Fin 3)) (h1 : (i 1).val = win0_4.index t (1 : Fin 3) * 1024 + r.val) (h2 : (i 2).val = e.val) :
    k0_pay1 (F := Ideal) (iblk m c 0 t) (iblk m c 1 t) (iblk m c 2 t) (iblk m c 3 t) (ix3 u r e) = resultOf m c i := by
  refine (pay_apply (iblk m c 0 t) (iblk m c 1 t) (iblk m c 2 t) (iblk m c 3 t) u r e).trans ?_
  obtain ⟨b, cr, e', rfl⟩ : ∃ (b : Fin 16) (cr : Fin 4096) (e' : Fin 128), i = ix3 b cr e' := ⟨i 0, i 1, i 2, eq_ix3 i⟩
  have he : e' = e := Fin.ext h2
  subst he
  have a0 : ctxRow (iblk m c 0 t) r = fun k => (m ((c : Thread nD τ).loc main_arg0) : S16x4096x128.Idx → EReal) (ix3 b cr k) :=
    funext fun k => ctx_block_apply m c t r k (ix3 b cr k) h0 h1 rfl
  have a1 : qRows (iblk m c 1 t) = fun q k => (m ((c : Thread nD τ).loc main_arg1) : S16x512x128.Idx → EReal) (ix3 b q k) :=
    funext fun q => funext fun k => q_block_apply m c t q k (ix3 b q k) h0 rfl rfl
  have a2 : (fun d e => (iblk m c 2 t : Vec Ideal S128x128 .f32) (ix2 d e)) = fun d e => (m ((c : Thread nD τ).loc main_arg4) : S128x128.Idx → EReal) (ix2 d e) :=
    funext fun d => funext fun e => w0_block_apply m c t d e
  have a3 : (fun d e => (iblk m c 3 t : Vec Ideal S128x128 .f32) (ix2 d e)) = fun d e => (m ((c : Thread nD τ).loc main_arg5) : S128x128.Idx → EReal) (ix2 d e) :=
    funext fun d => funext fun e => w1_block_apply m c t d e
  show outRow (ctxRow (iblk m c 0 t) r) (qRows (iblk m c 1 t)) (fun d e => (iblk m c 2 t : Vec Ideal S128x128 .f32) (ix2 d e))
      (fun d e => (iblk m c 3 t : Vec Ideal S128x128 .f32) (ix2 d e)) _
    = outRow (fun k => (m ((c : Thread nD τ).loc main_arg0) : S16x4096x128.Idx → EReal) (ix3 b cr k))
      (fun q k => (m ((c : Thread nD τ).loc main_arg1) : S16x512x128.Idx → EReal) (ix3 b q k))
      (fun d e => (m ((c : Thread nD τ).loc main_arg4) : S128x128.Idx → EReal) (ix2 d e))
      (fun d e => (m ((c : Thread nD τ).loc main_arg5) : S128x128.Idx → EReal) (ix2 d e)) _
  rw [a0, a1, a2, a3]

/-- What a point writes back is its block of `result`. -/
theorem flushed_eq (c : Dev nD) (t : Fin cfg0.N) :
    (dats m 0 c).flushed 4 t = ((cfg0.win 4).blk t).view.read (Elt Ideal) (resultOf m c) := by
  rw [Value.flushed4]
  unfold out0_4
  rw [View.canon_unit_zero zero3]
  simp only [View.ld_unit_zero (S := S1x1024x128) zero3, View.ld_unit_zero (S := S1x512x128) zero3, View.ld_unit_zero (S := S128x128) zero2]
  funext j
  obtain ⟨u, r, e, rfl⟩ : ∃ (u : Fin 1) (r : Fin 1024) (e : Fin 128), j = ix3 u r e := ⟨j 0, j 1, j 2, eq_ix3 j⟩
  show k0_pay1 (F := Ideal) (iblk m c 0 t) (iblk m c 1 t) (iblk m c 2 t) (iblk m c 3 t) (ix3 u r e) = resultOf m c (((cfg0.win 4).blk t).view.emb (ix3 u r e))
  refine point_entry m c t u r e _ ?_ ?_ ?_
  · have hu : u.val < 1 := u.isLt
    show win0_4.index t (0 : Fin 3) * 1 + 1 * u.val = win0_4.index t (0 : Fin 3); omega
  · show win0_4.index t (1 : Fin 3) * 1024 + 1 * r.val = win0_4.index t (1 : Fin 3) * 1024 + r.val; omega
  · obtain ⟨-, -, -, e3, -⟩ := index_facts t
    show win0_4.index t (2 : Fin 3) * 128 + 1 * e.val = e.val; omega

/-- An index of the result array is in point `t`'s block iff each coordinate is in the block's range on its axis. -/
theorem mem_block (t : Fin cfg0.N) (i : S16x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v0).slice (win0_4.rect t)).set ↔ _
  rw [View.set_slice_whole, Rect.mem_set_unit]
  exact Iff.rfl

/-- The 64 blocks cover the result array: row i₁ of batch i₀ is in the block of point (i₀, i₁ / 1024). -/
theorem cover (i : S16x4096x128.Idx) : ∃ t : Fin cfg0.N, (cfg0.win 4).flush t = true ∧ i ∈ ((cfg0.win 4).blk t).view.set := by
  have hi0 : (i 0).val < 16 := (i 0).isLt
  have hi1 : (i 1).val < 4096 := (i 1).isLt
  have hi2 : (i 2).val < 128 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- After the run the result array is `result` of the arguments. -/
theorem final (c : Dev nD) : (dats m 0 c).arrAt 4 cfg0.N = resultOf m c :=
  (dats m 0 c).arrAt_eq_of_cover 4 (resultOf m c) (fun t _ => flushed_eq m c t) (cover)

/-- The kernel's run: the result array ends at `result` of the arguments, the arguments unchanged. -/
theorem run : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Hand

end
-- ==== Proof.RefAttend.lean ====
/-
  The reference's result, entry by entry, is `Attend.result` of its four float arguments: each of its host operations
  read at an entry (the generated read-at-an-index lemmas), in the order the program applies them — the batched scores,
  their maximum over the question axis, the exponentials, their sum, the quotient, the weighted sum of the question rows,
  the two projections and their sum.
-/
import proofs.«129756_j6047313952905_1_alg».proof.Proof.Gen.ReferenceIdeal.Read
import proofs.«129756_j6047313952905_1_alg».proof.Proof.Attend
import proofs.«129756_j6047313952905_1_alg».proof.Proof.LibRowOps

noncomputable section

namespace Cert.ReferenceIdeal.RefValue

open Cert.ReferenceIdeal Cert.ReferenceIdeal.Gen Cert.ReferenceIdeal.Read Idealize.ShloMosaic Idealize.ShloMosaic.ValueIdx
open Cert.Attend

variable (x0 : (⟨S16x4096x128, .f32⟩ : BufTy).Contents (Elt Ideal)) (x1 : (⟨S16x512x128, .f32⟩ : BufTy).Contents (Elt Ideal))
  (x4 x5 : (⟨S128x128, .f32⟩ : BufTy).Contents (Elt Ideal))

/-- Context row c of batch b. -/
abbrev ctxRow (b : Fin 16) (c : Fin 4096) : Fin 128 → EReal := fun k => x0 (ix3 b c k)
/-- The question rows of batch b. -/
abbrev qRows (b : Fin 16) : Fin 512 → Fin 128 → EReal := fun q k => x1 (ix3 b q k)

/-- The batched product of the context rows with the question rows, at (b, c, q): the score. -/
theorem scores_apply (b : Fin 16) (c : Fin 4096) (q : Fin 512) :
    val_main_v0 (F := Ideal) x0 x1 (ix3 b c q) = score (ctxRow x0 b c) (qRows x1 b) q := by
  refine (val_main_v0_apply x0 x1 (ix3 b c q)).trans ?_
  unfold score
  refine Finset.sum_congr rfl fun k _ => ?_
  have el : lidx_main_v0 (ix3 b c q) k = ix3 b c k := funext fun a => by
    match a with
    | ⟨0, _⟩ => rfl
    | ⟨1, _⟩ => rfl
    | ⟨2, _⟩ => rfl
  have er : ridx_main_v0 (ix3 b c q) k = ix3 b q k := funext fun a => by
    match a with
    | ⟨0, _⟩ => rfl
    | ⟨1, _⟩ => rfl
    | ⟨2, _⟩ => rfl
  rw [el, er]

/-- The maximum over the question axis joined with the floor, at (b, c): the peak. -/
theorem peak_apply (b : Fin 16) (c : Fin 4096) :
    val_main_v3 (F := Ideal) x0 x1 (ix2 b c) = peak (ctxRow x0 b c) (qRows x1 b) := by
  refine (val_main_v3_apply x0 x1 (ix2 b c)).trans ?_
  rw [val_main_v2_apply, val_main_cst_0_apply]
  unfold peak val_main_v1
  show max floor _ = max floor _
  refine congrArg (max floor) ?_
  refine (Cert.RowOps.host_row_max_apply (val_main_v0 (F := Ideal) x0 x1) (val_main_cst (F := Ideal))
    reducesTo_S16x4096x512_S16x4096_d2 (by decide) h_S_ b c).trans ?_
  exact congrArg (Finset.fold max floor · Finset.univ) (funext fun q => scores_apply x0 x1 b c q)

/-- The exponential of the score less the peak, at (b, c, q). -/
theorem expo_apply (b : Fin 16) (c : Fin 4096) (q : Fin 512) :
    val_main_v7 (F := Ideal) x0 x1 (ix3 b c q) = expo (ctxRow x0 b c) (qRows x1 b) q := by
  refine (val_main_v7_apply x0 x1 (ix3 b c q)).trans ?_
  rw [val_main_v6_apply, val_main_v5_apply, val_main_v4_apply]
  have e5 : idx_main_v4 (idx_main_v5 (ix3 b c q)) = ix2 b c := funext fun a => by
    match a with
    | ⟨0, _⟩ => rfl
    | ⟨1, _⟩ => rfl
  rw [e5, peak_apply, scores_apply]
  rfl

/-- The sum of the exponentials over the question axis, at (b, c). -/
theorem mass_apply (b : Fin 16) (c : Fin 4096) :
    val_main_v8 (F := Ideal) x0 x1 (ix2 b c) = mass (ctxRow x0 b c) (qRows x1 b) := by
  refine (val_main_v8_apply x0 x1 (ix2 b c)).trans ?_
  rw [val_main_cst_1_apply]
  show Ideal.ofBits .f32 0x00000000#32 + _ = _
  rw [Ideal.ofBits_zero_f32, zero_add]
  unfold mass
  refine Finset.sum_congr rfl fun q _ => ?_
  have e8 : idx_main_v8 (ix2 b c) q = ix3 b c q := funext fun a => by
    match a with
    | ⟨0, _⟩ => rfl
    | ⟨1, _⟩ => rfl
    | ⟨2, _⟩ => rfl
  rw [e8, expo_apply]

/-- The quotient, at (b, c, q): the weight. -/
theorem weight_apply (b : Fin 16) (c : Fin 4096) (q : Fin 512) :
    val_main_v11 (F := Ideal) x0 x1 (ix3 b c q) = weight (ctxRow x0 b c) (qRows x1 b) q := by
  refine (val_main_v11_apply x0 x1 (ix3 b c q)).trans ?_
  rw [val_main_v10_apply, val_main_v9_apply]
  have e10 : idx_main_v9 (idx_main_v10 (ix3 b c q)) = ix2 b c := funext fun a => by
    match a with
    | ⟨0, _⟩ => rfl
    | ⟨1, _⟩ => rfl
  rw [e10, mass_apply, expo_apply]
  rfl

/-- The batched product of the weights with the question rows, at (b, c, d): the blend. -/
theorem blend_apply (b : Fin 16) (c : Fin 4096) (d : Fin 128) :
    val_main_v12 (F := Ideal) x0 x1 (ix3 b c d) = blend (ctxRow x0 b c) (qRows x1 b) d := by
  refine (val_main_v12_apply x0 x1 (ix3 b c d)).trans ?_
  unfold blend
  refine Finset.sum_congr rfl fun q _ => ?_
  have el : lidx_main_v12 (ix3 b c d) q = ix3 b c q := funext fun a => by
    match a with
    | ⟨0, _⟩ => rfl
    | ⟨1, _⟩ => rfl
    | ⟨2, _⟩ => rfl
  have er : ridx_main_v12 (ix3 b c d) q = ix3 b q d := funext fun a => by
    match a with
    | ⟨0, _⟩ => rfl
    | ⟨1, _⟩ => rfl
    | ⟨2, _⟩ => rfl
  rw [el, er, weight_apply]

/-- The reference's result is `Attend.result` of its arguments. -/
theorem result_eq : val_main_v15 (F := Ideal) x0 x1 x4 x5 = result x0 x1 x4 x5 := by
  funext i
  obtain ⟨b, c, e, rfl⟩ : ∃ (b : Fin 16) (c : Fin 4096) (e : Fin 128), i = ix3 b c e := ⟨i 0, i 1, i 2, eq_ix3 i⟩
  refine (val_main_v15_apply x0 x1 x4 x5 (ix3 b c e)).trans ?_
  rw [val_main_v13_apply, val_main_v14_apply]
  show _ + _ = outRow (ctxRow x0 b c) (qRows x1 b) (fun d e => x4 (ix2 d e)) (fun d e => x5 (ix2 d e)) e
  unfold outRow
  refine congrArg₂ (· + ·) (Finset.sum_congr rfl fun d _ => ?_) (Finset.sum_congr rfl fun d _ => ?_)
  · have el : lidx_main_v13 (ix3 b c e) d = ix3 b c d := funext fun a => by
      match a with
      | ⟨0, _⟩ => rfl
      | ⟨1, _⟩ => rfl
      | ⟨2, _⟩ => rfl
    have er : ridx_main_v13 (ix3 b c e) d = ix2 d e := funext fun a => by
      match a with
      | ⟨0, _⟩ => rfl
      | ⟨1, _⟩ => rfl
    rw [el, er, blend_apply]
  · have el : lidx_main_v14 (ix3 b c e) d = ix3 b c d := funext fun a => by
      match a with
      | ⟨0, _⟩ => rfl
      | ⟨1, _⟩ => rfl
      | ⟨2, _⟩ => rfl
    have er : ridx_main_v14 (ix3 b c e) d = ix2 d e := funext fun a => by
      match a with
      | ⟨0, _⟩ => rfl
      | ⟨1, _⟩ => rfl
    rw [el, er]

end Cert.ReferenceIdeal.RefValue

end
-- ==== Proof.lean ====
/-
  The kernel and its reference compute one function of the four float arguments at the ideal values:
  `Attend.result` — for context row c of batch b, softmax attention over batch b's 512 question rows (scores by inner
  product, the maximum subtracted before the exponential, the exponentials over their sum), the attended question rows
  projected by `W1` plus the context row projected by `W0`. The kernel does this for 1024 context rows per grid point with
  matrix products into a zero accumulator and roundings to bf16 that are the identity on the extended reals; the reference
  does it with batched `dot_general`s on the host. Both subtract the same maximum, start it from the same -∞, and divide by
  the same sum, so no algebraic law beyond re-indexing the sums is needed, and the precondition is not used.
  The two integer masks are accepted and unused by both programs.
  The idealization rewrote nothing, so `preserves` is trivial; the three frames are the generated ones (the reference's is
  its generated run with the result dropped).
-/
import proofs.«129756_j6047313952905_1_alg».proof.Defs
import proofs.«129756_j6047313952905_1_alg».proof.Proof.Gen.Kernel
import proofs.«129756_j6047313952905_1_alg».proof.Proof.Gen.Kernel.Skeleton
import proofs.«129756_j6047313952905_1_alg».proof.Proof.Gen.Kernel.Launch
import proofs.«129756_j6047313952905_1_alg».proof.Proof.Gen.Kernel.Points
import proofs.«129756_j6047313952905_1_alg».proof.Proof.Gen.Kernel.Frame
import proofs.«129756_j6047313952905_1_alg».proof.Proof.Gen.KernelIdeal
import proofs.«129756_j6047313952905_1_alg».proof.Proof.Gen.KernelIdeal.Skeleton
import proofs.«129756_j6047313952905_1_alg».proof.Proof.Gen.KernelIdeal.Launch
import proofs.«129756_j6047313952905_1_alg».proof.Proof.Gen.KernelIdeal.Points
import proofs.«129756_j6047313952905_1_alg».proof.Proof.Gen.KernelIdeal.Frame
import proofs.«129756_j6047313952905_1_alg».proof.Proof.Gen.ReferenceIdeal
import proofs.«129756_j6047313952905_1_alg».proof.Proof.Gen.Pre_finite_inputs
import proofs.«129756_j6047313952905_1_alg».proof.Proof.Gen.KernelIdeal.Value
import proofs.«129756_j6047313952905_1_alg».proof.Proof.Gen.ReferenceIdeal.Run
import proofs.«129756_j6047313952905_1_alg».proof.Proof.Gen.ReferenceIdeal.Read
import proofs.«129756_j6047313952905_1_alg».proof.Proof.KernelRun
import proofs.«129756_j6047313952905_1_alg».proof.Proof.RefAttend
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `Attend.result` of the arguments:
    the kernel by its run read block by block, the reference by its run read operation by operation. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, -, e4, e5⟩ := hagree c
  rw [Cert.ReferenceIdeal.Read.val_main_v15_eq, Cert.ReferenceIdeal.RefValue.result_eq, e0, e1, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
